-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x2048 : Shape := ⟨3, ![32, 8, 2048]⟩
abbrev S2048x100000 : Shape := ⟨2, ![2048, 100000]⟩
abbrev S100000 : Shape := ⟨1, ![100000]⟩
abbrev S_ : Shape := ⟨0, ![]⟩

class Facts : Prop where
  bcast_S_S32x8x2048 : S_.BroadcastsInDim S32x8x2048 (![] : Fin 0 → Fin S32x8x2048.rank)
  reducesTo_S32x8x2048_S_d0_1_2 : S32x8x2048.ReducesTo [0, 1, 2] S_
  h_S_ : 0 < S_.numel
  bcast_S_S2048x100000 : S_.BroadcastsInDim S2048x100000 (![] : Fin 0 → Fin S2048x100000.rank)
  reducesTo_S2048x100000_S_d0_1 : S2048x100000.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S32x8x2048 .f32) (main_arg1 : FVec F S2048x100000 .f32) (main_arg2 : FVec F S100000 .f32) : IVec S_ 1 :=
  let main_v0 : FVec F S32x8x2048 .f32 := Host.absf main_arg0
  let main_cst : FVec F S_ .f32 := constant S_ .f32 0x7F800000#32
  let main_v1 : FVec F S32x8x2048 .f32 := broadcastInDim S32x8x2048 ![] bcast_S_S32x8x2048 main_cst
  let main_v2 : IVec S32x8x2048 1 := cmpf .olt main_v0 main_v1
  let main_c : IVec S_ 1 := constantI S_ 1 1#1
  let main_v3 : IVec S_ 1 := (fun x v => Host.reduce IntOp.andi x v reducesTo_S32x8x2048_S_d0_1_2 h_S_) main_v2 main_c
  let main_v4 : FVec F S2048x100000 .f32 := Host.absf main_arg1
  let main_cst_0 : FVec F S_ .f32 := constant S_ .f32 0x7F800000#32
  let main_v5 : FVec F S2048x100000 .f32 := broadcastInDim S2048x100000 ![] bcast_S_S2048x100000 main_cst_0
  let main_v6 : IVec S2048x100000 1 := cmpf .olt main_v4 main_v5
  let main_c_1 : IVec S_ 1 := constantI S_ 1 1#1
  let main_v7 : IVec S_ 1 := (fun x v => Host.reduce IntOp.andi x v reducesTo_S2048x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S32x8x2048 : Shape := ⟨3, ![32, 8, 2048]⟩
abbrev S2048x100000 : Shape := ⟨2, ![2048, 100000]⟩
abbrev S100000 : Shape := ⟨1, ![100000]⟩
abbrev S32x1x2048 : Shape := ⟨3, ![32, 1, 2048]⟩
abbrev S32x2048 : Shape := ⟨2, ![32, 2048]⟩
abbrev S1x100000 : Shape := ⟨2, ![1, 100000]⟩
abbrev S32x64x32 : Shape := ⟨3, ![32, 64, 32]⟩
abbrev S64x32x32 : Shape := ⟨3, ![64, 32, 32]⟩
abbrev S32x100000 : Shape := ⟨2, ![32, 100000]⟩
abbrev S1x32x32 : Shape := ⟨3, ![1, 32, 32]⟩
abbrev S32x32 : Shape := ⟨2, ![32, 32]⟩
abbrev S32 : Shape := ⟨1, ![32]⟩
abbrev S32x1 : Shape := ⟨2, ![32, 1]⟩

abbrev nBuf : Space → Nat
  | .hbm => 9
  | .vmem => 6
  | .smem => 0
  | _ => 0

abbrev bufTy : (tb : Table) → Fin (tcTables nBuf tb) → BufTy
  | .hbm, ⟨0, _⟩ => ⟨S32x8x2048, .f32⟩
  | .hbm, ⟨1, _⟩ => ⟨S2048x100000, .f32⟩
  | .hbm, ⟨2, _⟩ => ⟨S100000, .f32⟩
  | .hbm, ⟨3, _⟩ => ⟨S32x1x2048, .f32⟩
  | .hbm, ⟨4, _⟩ => ⟨S32x2048, .f32⟩
  | .hbm, ⟨5, _⟩ => ⟨S1x100000, .f32⟩
  | .hbm, ⟨6, _⟩ => ⟨S32x64x32, .f32⟩
  | .hbm, ⟨7, _⟩ => ⟨S64x32x32, .f32⟩
  | .hbm, ⟨8, _⟩ => ⟨S32x100000, .f32⟩
  | .local _ .vmem, ⟨0, _⟩ => ⟨S1x32x32, .f32⟩
  | .local _ .vmem, ⟨1, _⟩ => ⟨S1x32x32, .f32⟩
  | .local _ .vmem, ⟨2, _⟩ => ⟨S32x100000, .f32⟩
  | .local _ .vmem, ⟨3, _⟩ => ⟨S32x100000, .f32⟩
  | .local _ .vmem, ⟨4, _⟩ => ⟨S1x100000, .f32⟩
  | .local _ .vmem, ⟨5, _⟩ => ⟨S32x100000, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg0 : BitVec 32 := BitVec.ofNat 32 (i 0).val
  let c0_i32_5 : BitVec 32 := 0#32
  let v7 : BitVec 1 := Scalar.cmpi .ne arg0 c0_i32_5
  let v8 : BitVec 32 := Scalar.extui v7
  let c0_i32_6 : BitVec 32 := 0#32
  let v9 : BitVec 1 := Scalar.cmpi .ne v8 c0_i32_6
  v9

def k0_cond3 (i : grid0.Coords) : BitVec 1 :=
  let arg0 : BitVec 32 := BitVec.ofNat 32 (i 0).val
  let c63_i32 : BitVec 32 := 63#32
  let v10 : BitVec 1 := Scalar.cmpi .eq arg0 c63_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x100000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x100000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S32x8x2048_S32x1x2048_0_7_0 : S32x8x2048.Slices ![0, 7, 0] S32x1x2048
  shapeCasts_S32x1x2048_S32x2048 : S32x1x2048.ShapeCasts S32x2048
  shapeCasts_S100000_S1x100000 : S100000.ShapeCasts S1x100000
  shapeCasts_S32x2048_S32x64x32 : S32x2048.ShapeCasts S32x64x32
  transposes_S32x64x32_S64x32x32_1_0_2 : S32x64x32.Transposes [1, 0, 2] S64x32x32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  inb_S32x100000_S32x100000_0_0 : ∀ a, (![0, 0] : Fin 2 → Nat) a + S32x100000.size a ≤ S32x100000.size a
  h_S32x100000 : 0 < S32x100000.numel
  inb_S1x100000_S1x100000_0_0 : ∀ a, (![0, 0] : Fin 2 → Nat) a + S1x100000.size a ≤ S1x100000.size a
  h_S1x100000 : 0 < S1x100000.numel
  shapeCasts_S1x100000_S1x100000 : S1x100000.ShapeCasts S1x100000
  broadcasts_S1x100000_S32x100000 : S1x100000.Broadcasts S32x100000
  shapeCasts_S32x100000_S32x100000 : S32x100000.ShapeCasts S32x100000
  reduces_S32x100000_S32 : S32x100000.Reduces [1] S32
  shapeCasts_S32_S32x1 : S32.ShapeCasts S32x1
  broadcasts_S32x1_S32x100000 : S32x1.Broadcasts S32x100000
  dot_S32x32_S32x100000_S32x100000_1_0_0_1_n_n_wf : DotDims.WF S32x32 S32x100000 S32x100000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32.size a ≤ S64x32x32.size a
  hwx0_0 : ∀ i : grid0.Coords, EltTy.bits .f32 = 32 ∨ (Rect.block (s := S64x32x32) S1x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x100000.size a ≤ S2048x100000.size a
  hwx0_1 : ∀ i : grid0.Coords, EltTy.bits .f32 = 32 ∨ (Rect.block (s := S2048x100000) S32x100000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100000.size a ≤ S1x100000.size a
  hwx0_2 : ∀ i : grid0.Coords, EltTy.bits .f32 = 32 ∨ (Rect.block (s := S1x100000) S1x100000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x100000.size a ≤ S32x100000.size a
  hwx0_3 : ∀ i : grid0.Coords, EltTy.bits .f32 = 32 ∨ (Rect.block (s := S32x100000) S32x100000.size (cc0_transform_3 i) (hinb0_3 i)).WholeWords (EltTy.packing .f32)

variable [Facts₀]

def dot_S32x32_S32x100000_S32x100000_1_0_0_1_n_n : DotDims S32x32 S32x100000 S32x100000 where
  lhsContracting := [1]
  rhsContracting := [0]
  lhsNonContracting := [0]
  rhsNonContracting := [1]
  lhsBatch := []
  rhsBatch := []
  wf := dot_S32x32_S32x100000_S32x100000_1_0_0_1_n_n_wf

abbrev win0_0 : Pipeline.Window sig grid0 :=
  Pipeline.Window.ofSpec (Memref.whole main_v4) S1x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x100000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x100000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S32x8x2048 : Shape := ⟨3, ![32, 8, 2048]⟩
abbrev S2048x100000 : Shape := ⟨2, ![2048, 100000]⟩
abbrev S100000 : Shape := ⟨1, ![100000]⟩
abbrev S32x8x100000 : Shape := ⟨3, ![32, 8, 100000]⟩
abbrev S1x1x100000 : Shape := ⟨3, ![1, 1, 100000]⟩
abbrev S_ : Shape := ⟨0, ![]⟩
abbrev S32x8 : Shape := ⟨2, ![32, 8]⟩
abbrev S32x8x1 : Shape := ⟨3, ![32, 8, 1]⟩
abbrev S32x1x100000 : Shape := ⟨3, ![32, 1, 100000]⟩
abbrev S32x100000 : Shape := ⟨2, ![32, 100000]⟩

abbrev nBuf : Space → Nat
  | .hbm => 23
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S2048x100000, .f32⟩
  | .hbm, ⟨2, _⟩ => ⟨S100000, .f32⟩
  | .hbm, ⟨3, _⟩ => ⟨S32x8x100000, .f32⟩
  | .hbm, ⟨4, _⟩ => ⟨S1x1x100000, .f32⟩
  | .hbm, ⟨5, _⟩ => ⟨S32x8x100000, .f32⟩
  | .hbm, ⟨6, _⟩ => ⟨S32x8x100000, .f32⟩
  | .hbm, ⟨7, _⟩ => ⟨S_, .f32⟩
  | .hbm, ⟨8, _⟩ => ⟨S32x8, .f32⟩
  | .hbm, ⟨9, _⟩ => ⟨S_, .f32⟩
  | .hbm, ⟨10, _⟩ => ⟨S32x8, .f32⟩
  | .hbm, ⟨11, _⟩ => ⟨S32x8, .f32⟩
  | .hbm, ⟨12, _⟩ => ⟨S32x8x1, .f32⟩
  | .hbm, ⟨13, _⟩ => ⟨S32x8x100000, .f32⟩
  | .hbm, ⟨14, _⟩ => ⟨S32x8x100000, .f32⟩
  | .hbm, ⟨15, _⟩ => ⟨S32x8x100000, .f32⟩
  | .hbm, ⟨16, _⟩ => ⟨S_, .f32⟩
  | .hbm, ⟨17, _⟩ => ⟨S32x8, .f32⟩
  | .hbm, ⟨18, _⟩ => ⟨S32x8x1, .f32⟩
  | .hbm, ⟨19, _⟩ => ⟨S32x8x100000, .f32⟩
  | .hbm, ⟨20, _⟩ => ⟨S32x8x100000, .f32⟩
  | .hbm, ⟨21, _⟩ => ⟨S32x1x100000, .f32⟩
  | .hbm, ⟨22, _⟩ => ⟨S32x100000, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S100000_S1x1x100000_2 : S100000.BroadcastsInDim S1x1x100000 (![2] : Fin 1 → Fin S1x1x100000.rank)
  bcast_S1x1x100000_S32x8x100000_0_1_2 : S1x1x100000.BroadcastsInDim S32x8x100000 (![0, 1, 2] : Fin 3 → Fin S32x8x100000.rank)
  reducesTo_S32x8x100000_S32x8_d2 : S32x8x100000.ReducesTo [2] S32x8
  h_S_ : 0 < S_.numel
  bcast_S_S32x8 : S_.BroadcastsInDim S32x8 (![] : Fin 0 → Fin S32x8.rank)
  bcast_S32x8_S32x8x1_0_1 : S32x8.BroadcastsInDim S32x8x1 (![0, 1] : Fin 2 → Fin S32x8x1.rank)
  bcast_S32x8x1_S32x8x100000_0_1_2 : S32x8x1.BroadcastsInDim S32x8x100000 (![0, 1, 2] : Fin 3 → Fin S32x8x100000.rank)
  slices_S32x8x100000_S32x1x100000_0_7_0 : S32x8x100000.Slices ![0, 7, 0] S32x1x100000
  shapeCasts_S32x1x100000_S32x100000 : S32x1x100000.ShapeCasts S32x100000
  dot_S32x8x2048_S2048x100000_S32x8x100000_2_0_01_1_n_n_wf : DotDims.WF S32x8x2048 S2048x100000 S32x8x100000 [2] [0] [0, 1] [1] [] []

variable [Facts₀]

def dot_S32x8x2048_S2048x100000_S32x8x100000_2_0_01_1_n_n : DotDims S32x8x2048 S2048x100000 S32x8x100000 where
  lhsContracting := [2]
  rhsContracting := [0]
  lhsNonContracting := [0, 1]
  rhsNonContracting := [1]
  lhsBatch := []
  rhsBatch := []
  wf := dot_S32x8x2048_S2048x100000_S32x8x100000_2_0_01_1_n_n_wf

class Facts : Prop extends Facts₀ where

variable [Facts]
-- ==== Proof.Kernel.Runs.lean ====
import proofs.«157596_g77412490543564_cont_9to1_m_386_14_alg».proof.Proof.Gen.Kernel.Frame
import proofs.«157596_g77412490543564_cont_9to1_m_386_14_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case

The grid has 64 points, one per chunk of 32 of the 2048 contracted features. At every point the body loads the
chunk's [1, 32, 32] block of activations and its [32, 100000] slab of weights and forms their product `k0_pay1`.
Then, by the point's position:
* at the first point it stores product + bias (`k0_pay2`) over whatever the output buffer held;
* at every later point it stores (what the buffer holds) + product (`k0_pay3`);
* at the last point it then normalises in place: `k0_pay4` (the exponential of the buffer less its row maxima)
  and `k0_pay5` (that, times the reciprocal of its row sums).
Each store covers the whole [32, 100000] buffer, so after the body the buffer holds the last store's value. -/

theorem hz2 : (![0, 0] : Fin 2 → ℕ) = fun _ => 0 := by funext a; fin_cases a <;> rfl
theorem hz3 : (![0, 0, 0] : Fin 3 → ℕ) = fun _ => 0 := by funext a; fin_cases a <;> rfl

/-- A load of the whole buffer after stores the last of which covered it whole reads that store's value. -/
theorem readCov_cons_whole {sig' : RefSig} {κ : Kind} {sp : Space} {S : Shape} {e : EltTy}
    (v : View sig' κ sp S e) {off : Fin S.rank → ℕ} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- What a buffer holds after stores the last of which covered it whole: that store's value. -/
theorem read_writes_cons_whole {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, View.mem_set_unit_zero rfl inb y⟩),
    View.canon_cons_unit_zero rfl]

/-- A load of a whole buffer held at `x` reads `x`. -/
theorem readAt_whole {sig' : RefSig} {sp : Space} {S : Shape} {e : EltTy}
    (a : Memref sig' .tc sp S e) (ha : a.IsWhole) {off : Fin S.rank → ℕ} (h : off = fun _ => 0)
    (inb : ∀ b, off b + S.size b ≤ S.size b) (x : S.Idx → Elt F e) :
    View.readAt (Elt F) a.view (Rect.unit off S.size inb).toLoadRect (ha.unread x) = x := by
  rw [View.readAt_eq_ld, ha.read_unread, View.ld_unit_zero h]

set_option maxHeartbeats 1000000 in
/-- The first point: the output buffer, found at anything, is left at product + bias. -/
theorem run_first (c : Dev nD) (i : grid0.Coords) (arg1 : Memref sig .tc .vmem S1x32x32 .f32) (harg1 : arg1.IsWhole) (arg2 : Memref sig .tc .vmem S32x100000 .f32) (harg2 : arg2.IsWhole) (arg3 : Memref sig .tc .vmem S1x100000 .f32) (harg3 : arg3.IsWhole) (arg4 : Memref sig .tc .vmem S32x100000 .f32) (harg4 : arg4.IsWhole)
    (hc1 : k0_cond1 i = 1#1) (hc2 : ¬ k0_cond2 i = 1#1) (hc3 : ¬ k0_cond3 i = 1#1)
    (x0 : Vec F S1x32x32 .f32) (x1 : Vec F S32x100000 .f32) (x2 : Vec F S1x100000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2)) -∗ K ⟨⟩))
      ⊢ wp frame (wpE (defs₀ (F := F)) Variants.none c none) E (cc0__proj_softmax_kernel i arg1 harg1 arg2 harg2 arg3 harg3 arg4 harg4) K := by
  simp only [cc0__proj_softmax_kernel_eq_skeleton]; unfold cc0__proj_softmax_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [read_writes_cons_whole _ _ hz2, readAt_whole arg1 harg1 hz3, readAt_whole arg2 harg2 hz2, readAt_whole arg3 harg3 hz2]

set_option maxHeartbeats 1000000 in
/-- A later point that is not the last: the output buffer, found at `xo`, is left at `xo` + product. -/
theorem run_middle (c : Dev nD) (i : grid0.Coords) (arg1 : Memref sig .tc .vmem S1x32x32 .f32) (harg1 : arg1.IsWhole) (arg2 : Memref sig .tc .vmem S32x100000 .f32) (harg2 : arg2.IsWhole) (arg3 : Memref sig .tc .vmem S1x100000 .f32) (harg3 : arg3.IsWhole) (arg4 : Memref sig .tc .vmem S32x100000 .f32) (harg4 : arg4.IsWhole)
    (hc1 : ¬ k0_cond1 i = 1#1) (hc2 : k0_cond2 i = 1#1) (hc3 : ¬ k0_cond3 i = 1#1)
    (x0 : Vec F S1x32x32 .f32) (x1 : Vec F S32x100000 .f32) (x2 : Vec F S1x100000 .f32) (xo : Vec F S32x100000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 xo)) -∗ K ⟨⟩))
      ⊢ wp frame (wpE (defs₀ (F := F)) Variants.none c none) E (cc0__proj_softmax_kernel i arg1 harg1 arg2 harg2 arg3 harg3 arg4 harg4) K := by
  simp only [cc0__proj_softmax_kernel_eq_skeleton]; unfold cc0__proj_softmax_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [read_writes_cons_whole _ _ hz2, readAt_whole arg1 harg1 hz3, readAt_whole arg2 harg2 hz2, readAt_whole arg4 harg4 hz2]

/-- What the last point leaves of a buffer found at `xo`: accumulate, exponentiate against the row maxima, normalise. -/
def lastOut (x0 : Vec F S1x32x32 .f32) (x1 : Vec F S32x100000 .f32) (xo : Vec F S32x100000 .f32) : Vec F S32x100000 .f32 :=
  k0_pay5 (k0_pay4 (k0_pay3 x0 x1 xo) (k0_pay3 x0 x1 xo)) (k0_pay4 (k0_pay3 x0 x1 xo) (k0_pay3 x0 x1 xo))

set_option maxHeartbeats 2000000 in
/-- The last point: the output buffer, found at `xo`, is left at `lastOut`. -/
theorem run_last (c : Dev nD) (i : grid0.Coords) (arg1 : Memref sig .tc .vmem S1x32x32 .f32) (harg1 : arg1.IsWhole) (arg2 : Memref sig .tc .vmem S32x100000 .f32) (harg2 : arg2.IsWhole) (arg3 : Memref sig .tc .vmem S1x100000 .f32) (harg3 : arg3.IsWhole) (arg4 : Memref sig .tc .vmem S32x100000 .f32) (harg4 : arg4.IsWhole)
    (hc1 : ¬ k0_cond1 i = 1#1) (hc2 : k0_cond2 i = 1#1) (hc3 : k0_cond3 i = 1#1)
    (x0 : Vec F S1x32x32 .f32) (x1 : Vec F S32x100000 .f32) (x2 : Vec F S1x100000 .f32) (xo : Vec F S32x100000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (lastOut x0 x1 xo)) -∗ K ⟨⟩))
      ⊢ wp frame (wpE (defs₀ (F := F)) Variants.none c none) E (cc0__proj_softmax_kernel i arg1 harg1 arg2 harg2 arg3 harg3 arg4 harg4) K := by
  simp only [cc0__proj_softmax_kernel_eq_skeleton]; unfold cc0__proj_softmax_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [read_writes_cons_whole _ _ hz2]
  sl_unfold_run_names
  simp only [readAt_whole arg1 harg1 hz3, readAt_whole arg2 harg2 hz2, readAt_whole arg4 harg4 hz2]
  repeat rw [readCov_cons_whole arg4.view hz2]
  rfl

end Cert.Kernel.Body

end
-- ==== Proof.Kernel.Body.lean ====
import proofs.«157596_g77412490543564_cont_9to1_m_386_14_alg».proof.Proof.Gen.Kernel.Frame
import proofs.«157596_g77412490543564_cont_9to1_m_386_14_alg».proof.Proof.Gen.Kernel.Skeleton
import Idealize.ShloMosaic.Lib.Pipeline.Value
import proofs.«157596_g77412490543564_cont_9to1_m_386_14_alg».proof.Proof.Kernel.Runs
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which

The body's three conditions are comparisons of the grid coordinate with 0 and 63; over the 64 points they are
decided once. One of the first two always holds, so the output window is stored into at every point. -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
theorem hcond3 : ∀ t : Fin cfg0.N, k0_cond3 (grid0.coords t) = 1#1 ↔ t.val = 63 :=
  (by decide +kernel : ∀ t : Fin grid0.N, k0_cond3 (grid0.coords t) = 1#1 ↔ t.val = 63)

/-- The output window is live at every point: the coordinate is zero or it is not. -/
theorem live3 : ∀ i : cfg0.grid.Coords, cfg0.idle 3 i = false :=
  (by decide +kernel : ∀ i : grid0.Coords, idle0 3 i = false)

/-- Each window's current staging memref at point `t`, spelled as the pipeline passes it to the body. -/
abbrev ms0 (t : Fin cfg0.N) : Memref sig .tc .vmem S1x32x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x100000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x100000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x100000 .f32 := win0_3.stage (cfg0.slots t 3)
abbrev hs3 (t : Fin cfg0.N) : (ms3 t).IsWhole := hstage0_3 ((cfg0.slots t 3).cast nbuf0_3)

/-! ## What the output buffer holds after each point -/

/-- The running contents of the output's staging buffer after the body at position `n`: product + bias at the
    first point; at each later point what the point before left, plus that point's product; and at the last
    point that sum normalised in place. -/
def outsAt (c : Dev nD) : (n : ℕ) → n < cfg0.N → Vec F S32x100000 .f32
  | 0, hn => k0_pay2 (iblk m c 0 ⟨0, hn⟩) (iblk m c 1 ⟨0, hn⟩) (iblk m c 2 ⟨0, hn⟩)
  | n + 1, hn =>
    if n + 1 = 63 then
      lastOut (iblk m c 0 ⟨n + 1, hn⟩) (iblk m c 1 ⟨n + 1, hn⟩) (outsAt c n (Nat.lt_of_succ_lt hn))
    else
      k0_pay3 (iblk m c 0 ⟨n + 1, hn⟩) (iblk m c 1 ⟨n + 1, hn⟩) (outsAt c n (Nat.lt_of_succ_lt hn))

theorem outsAt_first (c : Dev nD) (t : Fin cfg0.N) (h0 : t.val = 0) :
    outsAt m c t.val t.isLt = k0_pay2 (iblk m c 0 t) (iblk m c 1 t) (iblk m c 2 t) := by
  obtain ⟨n, hn⟩ := t
  cases n with
  | zero => rfl
  | succ n => exact absurd h0 (Nat.succ_ne_zero n)

theorem outsAt_middle (c : Dev nD) (t : Fin cfg0.N) (h0 : t.val ≠ 0) (h63 : t.val ≠ 63) :
    outsAt m c t.val t.isLt = k0_pay3 (iblk m c 0 t) (iblk m c 1 t)
      (outsAt m c (t.val - 1) (Nat.lt_of_le_of_lt (Nat.sub_le _ _) t.isLt)) := by
  obtain ⟨n, hn⟩ := t
  cases n with
  | zero => exact absurd rfl h0
  | succ n => exact (if_neg h63).trans rfl

theorem outsAt_last (c : Dev nD) (t : Fin cfg0.N) (h63 : t.val = 63) :
    outsAt m c t.val t.isLt = lastOut (iblk m c 0 t) (iblk m c 1 t)
      (outsAt m c (t.val - 1) (Nat.lt_of_le_of_lt (Nat.sub_le _ _) t.isLt)) := by
  obtain ⟨n, hn⟩ := t
  cases n with
  | zero => exact absurd h63 (by show ¬ (0 : ℕ) = 63; decide)
  | succ n => exact (if_pos h63).trans rfl

/-! ## The pipeline's proof data -/

/-- The arrays as the region finds them; after the body at a point each input's buffer at its block and the
    output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a later point the output's buffer holds what the body left at the point before: it is written back at the
    last point only, the window is live and its block is the whole buffer. -/
theorem before3_later (c : Dev nD) (t : Fin cfg0.N) (h0 : t.val ≠ 0) (d) :
    (dats m 0 c).before 3 t d = outsAt m c (t.val - 1) (Nat.lt_of_le_of_lt (Nat.sub_le _ _) t.isLt) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

/-- The output window being live at every point, what the body must leave of it is its contents after the point. -/
theorem leaves3 (c : Dev nD) (t : Fin cfg0.N) :
    (dats m 0 c).leavesExact 3 t = owns (c : Thread nD τ) (ms3 t) fullShare ((dats m 0 c).after 3 t) := by
  unfold Dat.leavesExact; rw [live3]

set_option maxHeartbeats 1600000 in
/-- The body at any point: the inputs' buffers hold their blocks; the closed forms say which of the three kinds of
    point it is; at a later point the output's buffer holds what the point before left; so that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves3]
  simp only [before0, before1, before2]
  rw [show (dats m 0 c).Φ t.succ = (dats m 0 c).Φ t.castSucc from rfl,
    show (dats m 0 c).owesAt () t.succ = (dats m 0 c).owesAt () t.castSucc from rfl,
    after0, after1, after2, after3]
  have hN : t.val < 64 := lt_of_lt_of_eq t.isLt (show cfg0.N = 64 from N_0)
  by_cases h0 : t.val = 0
  · rw [outsAt_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => ((hcond2 t).mp h) h0)
      (fun h => by have := (hcond3 t).mp h; omega) (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before3_later m c t h0]
    by_cases h63 : t.val = 63
    · rw [outsAt_last m c t h63]
      iintro ⟨HΦ, Ho, ⟨%d0, H0⟩, ⟨%d1, H1⟩, ⟨%d2, H2⟩, ⟨%d3, H3⟩⟩
      iapply (run_last c (grid0.coords t) _ _ _ _ _ _ _ _ (fun h => h0 ((hcond1 t).mp h)) ((hcond2 t).mpr h0)
        ((hcond3 t).mpr h63) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_middle m c t h0 h63]
      iintro ⟨HΦ, Ho, ⟨%d0, H0⟩, ⟨%d1, H1⟩, ⟨%d2, H2⟩, ⟨%d3, H3⟩⟩
      iapply (run_middle c (grid0.coords t) _ _ _ _ _ _ _ _ (fun h => h0 ((hcond1 t).mp h)) ((hcond2 t).mpr h0)
        (fun h => h63 ((hcond3 t).mp h)) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point (the output window's post read at a live point). -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdeal.Runs.lean ====
import proofs.«157596_g77412490543564_cont_9to1_m_386_14_alg».proof.Proof.Gen.KernelIdeal.Frame
import proofs.«157596_g77412490543564_cont_9to1_m_386_14_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case

The grid has 64 points, one per chunk of 32 of the 2048 contracted features. At every point the body loads the
chunk's [1, 32, 32] block of activations and its [32, 100000] slab of weights and forms their product `k0_pay1`.
Then, by the point's position:
* at the first point it stores product + bias (`k0_pay2`) over whatever the output buffer held;
* at every later point it stores (what the buffer holds) + product (`k0_pay3`);
* at the last point it then normalises in place: `k0_pay4` (the exponential of the buffer less its row maxima)
  and `k0_pay5` (that, times the reciprocal of its row sums).
Each store covers the whole [32, 100000] buffer, so after the body the buffer holds the last store's value. -/

theorem hz2 : (![0, 0] : Fin 2 → ℕ) = fun _ => 0 := by funext a; fin_cases a <;> rfl
theorem hz3 : (![0, 0, 0] : Fin 3 → ℕ) = fun _ => 0 := by funext a; fin_cases a <;> rfl

/-- A load of the whole buffer after stores the last of which covered it whole reads that store's value. -/
theorem readCov_cons_whole {sig' : RefSig} {κ : Kind} {sp : Space} {S : Shape} {e : EltTy}
    (v : View sig' κ sp S e) {off : Fin S.rank → ℕ} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- What a buffer holds after stores the last of which covered it whole: that store's value. -/
theorem read_writes_cons_whole {sig' : RefSig} {κ : Kind} {sp : Space} {S : Shape} {e : EltTy}
    (v : View sig' κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, View.mem_set_unit_zero rfl inb y⟩),
    View.canon_cons_unit_zero rfl]

/-- A load of a whole buffer held at `x` reads `x`. -/
theorem readAt_whole {sig' : RefSig} {sp : Space} {S : Shape} {e : EltTy}
    (a : Memref sig' .tc sp S e) (ha : a.IsWhole) {off : Fin S.rank → ℕ} (h : off = fun _ => 0)
    (inb : ∀ b, off b + S.size b ≤ S.size b) (x : S.Idx → Elt F e) :
    View.readAt (Elt F) a.view (Rect.unit off S.size inb).toLoadRect (ha.unread x) = x := by
  rw [View.readAt_eq_ld, ha.read_unread, View.ld_unit_zero h]

set_option maxHeartbeats 1000000 in
/-- The first point: the output buffer, found at anything, is left at product + bias. -/
theorem run_first (c : Dev nD) (i : grid0.Coords) (arg1 : Memref sig .tc .vmem S1x32x32 .f32) (harg1 : arg1.IsWhole) (arg2 : Memref sig .tc .vmem S32x100000 .f32) (harg2 : arg2.IsWhole) (arg3 : Memref sig .tc .vmem S1x100000 .f32) (harg3 : arg3.IsWhole) (arg4 : Memref sig .tc .vmem S32x100000 .f32) (harg4 : arg4.IsWhole)
    (hc1 : k0_cond1 i = 1#1) (hc2 : ¬ k0_cond2 i = 1#1) (hc3 : ¬ k0_cond3 i = 1#1)
    (x0 : Vec F S1x32x32 .f32) (x1 : Vec F S32x100000 .f32) (x2 : Vec F S1x100000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2)) -∗ K ⟨⟩))
      ⊢ wp frame (wpE (defs₀ (F := F)) Variants.none c none) E (cc0__proj_softmax_kernel i arg1 harg1 arg2 harg2 arg3 harg3 arg4 harg4) K := by
  simp only [cc0__proj_softmax_kernel_eq_skeleton]; unfold cc0__proj_softmax_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [read_writes_cons_whole _ _ hz2, readAt_whole arg1 harg1 hz3, readAt_whole arg2 harg2 hz2, readAt_whole arg3 harg3 hz2]

set_option maxHeartbeats 1000000 in
/-- A later point that is not the last: the output buffer, found at `xo`, is left at `xo` + product. -/
theorem run_middle (c : Dev nD) (i : grid0.Coords) (arg1 : Memref sig .tc .vmem S1x32x32 .f32) (harg1 : arg1.IsWhole) (arg2 : Memref sig .tc .vmem S32x100000 .f32) (harg2 : arg2.IsWhole) (arg3 : Memref sig .tc .vmem S1x100000 .f32) (harg3 : arg3.IsWhole) (arg4 : Memref sig .tc .vmem S32x100000 .f32) (harg4 : arg4.IsWhole)
    (hc1 : ¬ k0_cond1 i = 1#1) (hc2 : k0_cond2 i = 1#1) (hc3 : ¬ k0_cond3 i = 1#1)
    (x0 : Vec F S1x32x32 .f32) (x1 : Vec F S32x100000 .f32) (x2 : Vec F S1x100000 .f32) (xo : Vec F S32x100000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (k0_pay3 x0 x1 xo)) -∗ K ⟨⟩))
      ⊢ wp frame (wpE (defs₀ (F := F)) Variants.none c none) E (cc0__proj_softmax_kernel i arg1 harg1 arg2 harg2 arg3 harg3 arg4 harg4) K := by
  simp only [cc0__proj_softmax_kernel_eq_skeleton]; unfold cc0__proj_softmax_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [read_writes_cons_whole _ _ hz2, readAt_whole arg1 harg1 hz3, readAt_whole arg2 harg2 hz2, readAt_whole arg4 harg4 hz2]

/-- What the last point leaves of a buffer found at `xo`: accumulate, exponentiate against the row maxima, normalise. -/
def lastOut (x0 : Vec F S1x32x32 .f32) (x1 : Vec F S32x100000 .f32) (xo : Vec F S32x100000 .f32) : Vec F S32x100000 .f32 :=
  k0_pay5 (k0_pay4 (k0_pay3 x0 x1 xo) (k0_pay3 x0 x1 xo)) (k0_pay4 (k0_pay3 x0 x1 xo) (k0_pay3 x0 x1 xo))

set_option maxHeartbeats 2000000 in
/-- The last point: the output buffer, found at `xo`, is left at `lastOut`. -/
theorem run_last (c : Dev nD) (i : grid0.Coords) (arg1 : Memref sig .tc .vmem S1x32x32 .f32) (harg1 : arg1.IsWhole) (arg2 : Memref sig .tc .vmem S32x100000 .f32) (harg2 : arg2.IsWhole) (arg3 : Memref sig .tc .vmem S1x100000 .f32) (harg3 : arg3.IsWhole) (arg4 : Memref sig .tc .vmem S32x100000 .f32) (harg4 : arg4.IsWhole)
    (hc1 : ¬ k0_cond1 i = 1#1) (hc2 : k0_cond2 i = 1#1) (hc3 : k0_cond3 i = 1#1)
    (x0 : Vec F S1x32x32 .f32) (x1 : Vec F S32x100000 .f32) (x2 : Vec F S1x100000 .f32) (xo : Vec F S32x100000 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo
        ∗ (iprop(owns (c : Thread nD τ) arg1 fullShare x0 ∗ owns (c : Thread nD τ) arg2 fullShare x1 ∗ owns (c : Thread nD τ) arg3 fullShare x2
            ∗ owns (c : Thread nD τ) arg4 fullShare (lastOut x0 x1 xo)) -∗ K ⟨⟩))
      ⊢ wp frame (wpE (defs₀ (F := F)) Variants.none c none) E (cc0__proj_softmax_kernel i arg1 harg1 arg2 harg2 arg3 harg3 arg4 harg4) K := by
  simp only [cc0__proj_softmax_kernel_eq_skeleton]; unfold cc0__proj_softmax_kernel_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2
  obtain rfl := harg4.eq_unread hf3
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  rw [read_writes_cons_whole _ _ hz2]
  sl_unfold_run_names
  simp only [readAt_whole arg1 harg1 hz3, readAt_whole arg2 harg2 hz2, readAt_whole arg4 harg4 hz2]
  repeat rw [readCov_cons_whole arg4.view hz2]
  rfl

end Cert.KernelIdeal.Body

end
-- ==== Proof.KernelIdeal.Body.lean ====
import proofs.«157596_g77412490543564_cont_9to1_m_386_14_alg».proof.Proof.Gen.KernelIdeal.Frame
import proofs.«157596_g77412490543564_cont_9to1_m_386_14_alg».proof.Proof.Gen.KernelIdeal.Skeleton
import Idealize.ShloMosaic.Lib.Pipeline.Value
import proofs.«157596_g77412490543564_cont_9to1_m_386_14_alg».proof.Proof.KernelIdeal.Runs
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is which

The body's three conditions are comparisons of the grid coordinate with 0 and 63; over the 64 points they are
decided once. One of the first two always holds, so the output window is stored into at every point. -/

theorem hcond1 : ∀ t : Fin cfg0.N, k0_cond1 (grid0.coords t) = 1#1 ↔ t.val = 0 :=
  (by decide +kernel : ∀ t : Fin grid0.N, k0_cond1 (grid0.coords t) = 1#1 ↔ t.val = 0)
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
theorem hcond3 : ∀ t : Fin cfg0.N, k0_cond3 (grid0.coords t) = 1#1 ↔ t.val = 63 :=
  (by decide +kernel : ∀ t : Fin grid0.N, k0_cond3 (grid0.coords t) = 1#1 ↔ t.val = 63)

/-- The output window is live at every point: the coordinate is zero or it is not. -/
theorem live3 : ∀ i : cfg0.grid.Coords, cfg0.idle 3 i = false :=
  (by decide +kernel : ∀ i : grid0.Coords, idle0 3 i = false)

/-- Each window's current staging memref at point `t`, spelled as the pipeline passes it to the body. -/
abbrev ms0 (t : Fin cfg0.N) : Memref sig .tc .vmem S1x32x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x100000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x100000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x100000 .f32 := win0_3.stage (cfg0.slots t 3)
abbrev hs3 (t : Fin cfg0.N) : (ms3 t).IsWhole := hstage0_3 ((cfg0.slots t 3).cast nbuf0_3)

/-! ## What the output buffer holds after each point -/

/-- The running contents of the output's staging buffer after the body at position `n`: product + bias at the
    first point; at each later point what the point before left, plus that point's product; and at the last
    point that sum normalised in place. -/
def outsAt (c : Dev nD) : (n : ℕ) → n < cfg0.N → Vec F S32x100000 .f32
  | 0, hn => k0_pay2 (iblk m c 0 ⟨0, hn⟩) (iblk m c 1 ⟨0, hn⟩) (iblk m c 2 ⟨0, hn⟩)
  | n + 1, hn =>
    if n + 1 = 63 then
      lastOut (iblk m c 0 ⟨n + 1, hn⟩) (iblk m c 1 ⟨n + 1, hn⟩) (outsAt c n (Nat.lt_of_succ_lt hn))
    else
      k0_pay3 (iblk m c 0 ⟨n + 1, hn⟩) (iblk m c 1 ⟨n + 1, hn⟩) (outsAt c n (Nat.lt_of_succ_lt hn))

theorem outsAt_first (c : Dev nD) (t : Fin cfg0.N) (h0 : t.val = 0) :
    outsAt m c t.val t.isLt = k0_pay2 (iblk m c 0 t) (iblk m c 1 t) (iblk m c 2 t) := by
  obtain ⟨n, hn⟩ := t
  cases n with
  | zero => rfl
  | succ n => exact absurd h0 (Nat.succ_ne_zero n)

theorem outsAt_middle (c : Dev nD) (t : Fin cfg0.N) (h0 : t.val ≠ 0) (h63 : t.val ≠ 63) :
    outsAt m c t.val t.isLt = k0_pay3 (iblk m c 0 t) (iblk m c 1 t)
      (outsAt m c (t.val - 1) (Nat.lt_of_le_of_lt (Nat.sub_le _ _) t.isLt)) := by
  obtain ⟨n, hn⟩ := t
  cases n with
  | zero => exact absurd rfl h0
  | succ n => exact (if_neg h63).trans rfl

theorem outsAt_last (c : Dev nD) (t : Fin cfg0.N) (h63 : t.val = 63) :
    outsAt m c t.val t.isLt = lastOut (iblk m c 0 t) (iblk m c 1 t)
      (outsAt m c (t.val - 1) (Nat.lt_of_le_of_lt (Nat.sub_le _ _) t.isLt)) := by
  obtain ⟨n, hn⟩ := t
  cases n with
  | zero => exact absurd h63 (by show ¬ (0 : ℕ) = 63; decide)
  | succ n => exact (if_pos h63).trans rfl

/-! ## The pipeline's proof data -/

/-- The arrays as the region finds them; after the body at a point each input's buffer at its block and the
    output's at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outsAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a later point the output's buffer holds what the body left at the point before: it is written back at the
    last point only, the window is live and its block is the whole buffer. -/
theorem before3_later (c : Dev nD) (t : Fin cfg0.N) (h0 : t.val ≠ 0) (d) :
    (dats m 0 c).before 3 t d = outsAt m c (t.val - 1) (Nat.lt_of_le_of_lt (Nat.sub_le _ _) t.isLt) := by
  have hN : t.val < 64 := lt_of_lt_of_eq t.isLt (show cfg0.N = 64 from N_0)
  rw [Dat.before_out_kept _ 3 rfl t h0 (Bool.eq_false_iff.mpr fun h => by have := (flush0_3 _).mp h; dsimp only at this; omega)
    live3 (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (dats m 0 c).leavesExact 3 t)

/-- The output window being live at every point, what the body must leave of it is its contents after the point. -/
theorem leaves3 (c : Dev nD) (t : Fin cfg0.N) :
    (dats m 0 c).leavesExact 3 t = owns (c : Thread nD τ) (ms3 t) fullShare ((dats m 0 c).after 3 t) := by
  unfold Dat.leavesExact; rw [live3]

set_option maxHeartbeats 1600000 in
/-- The body at any point: the inputs' buffers hold their blocks; the closed forms say which of the three kinds of
    point it is; at a later point the output's buffer holds what the point before left; so that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves3]
  simp only [before0, before1, before2]
  rw [show (dats m 0 c).Φ t.succ = (dats m 0 c).Φ t.castSucc from rfl,
    show (dats m 0 c).owesAt () t.succ = (dats m 0 c).owesAt () t.castSucc from rfl,
    after0, after1, after2, after3]
  have hN : t.val < 64 := lt_of_lt_of_eq t.isLt (show cfg0.N = 64 from N_0)
  by_cases h0 : t.val = 0
  · rw [outsAt_first m c t h0]
    iintro ⟨HΦ, Ho, ⟨%d0, H0⟩, ⟨%d1, H1⟩, ⟨%d2, H2⟩, ⟨%d3, H3⟩⟩
    iapply (run_first c (grid0.coords t) _ _ _ _ _ _ _ _ ((hcond1 t).mpr h0) (fun h => ((hcond2 t).mp h) h0)
      (fun h => by have := (hcond3 t).mp h; omega) (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before3_later m c t h0]
    by_cases h63 : t.val = 63
    · rw [outsAt_last m c t h63]
      iintro ⟨HΦ, Ho, ⟨%d0, H0⟩, ⟨%d1, H1⟩, ⟨%d2, H2⟩, ⟨%d3, H3⟩⟩
      iapply (run_last c (grid0.coords t) _ _ _ _ _ _ _ _ (fun h => h0 ((hcond1 t).mp h)) ((hcond2 t).mpr h0)
        ((hcond3 t).mpr h63) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [outsAt_middle m c t h0 h63]
      iintro ⟨HΦ, Ho, ⟨%d0, H0⟩, ⟨%d1, H1⟩, ⟨%d2, H2⟩, ⟨%d3, H3⟩⟩
      iapply (run_middle c (grid0.coords t) _ _ _ _ _ _ _ _ (fun h => h0 ((hcond1 t).mp h)) ((hcond2 t).mpr h0)
        (fun h => h63 ((hcond3 t).mp h)) (iblk m c 0 t) (iblk m c 1 t) (iblk m c 2 t) _ Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point (the output window's post read at a live point). -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelIdeal.Final.lean ====
import proofs.«157596_g77412490543564_cont_9to1_m_386_14_alg».proof.Proof.Gen.KernelIdeal.Frame
import proofs.«157596_g77412490543564_cont_9to1_m_386_14_alg».proof.Proof.Gen.KernelIdeal.Skeleton
import Idealize.ShloMosaic.Lib.Pipeline.Value
import proofs.«157596_g77412490543564_cont_9to1_m_386_14_alg».proof.Proof.KernelIdeal.Body
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result array after the run

The output window's one block is the whole [32, 100000] array, and it is written back once, after the last of the
64 points. So the array ends holding what the output's staging buffer holds after the last point. -/

/-- The last point of the grid. -/
def tLast : Fin cfg0.N := ⟨63, by rw [show cfg0.N = 64 from N_0]; decide⟩

/-- What the output's staging buffer holds after the last point, as contents of the result array. -/
abbrev result (c : Dev nD) : Buf (Elt F) ((c : Thread nD τ).loc main_v5) :=
  outsAt m c 63 (by rw [show cfg0.N = 64 from N_0]; decide)

/-- The one write-back, at the last point, writes it: block (0, 0) of the array read through zero offsets is the array. -/
theorem flushed_eq (c : Dev nD) (t : Fin cfg0.N) (hf : (cfg0.win 3).flush t = true) :
    (dats m 0 c).flushed 3 t = ((cfg0.win 3).blk t).view.read (Elt F) (result m c) := by
  have hN : cfg0.N = 64 := N_0
  have h63 : t.val = 63 := by have := (flush0_3 t).mp hf; have := t.isLt; omega
  obtain rfl : t = tLast := Fin.ext h63
  show (cfg0.win 3).cut (grid0.coords tLast) ((dats m 0 c).after 3 tLast) = _
  rw [after3]
  have hz' : (fun a => win0_3.index tLast a * main_v5.ty.shape.size a) = fun _ => 0 := funext fun a => by fin_cases a <;> decide +kernel
  exact (Memref.read_access_unit_zero (Elt F) main_v5 hz' (fun a => by rw [congrFun hz' a]; simp) (result m c)).symm

/-- So the result array ends holding `result`: the last point's block covers it. -/
theorem final_out (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v5).slice (win0_3.rect tLast)).set
      rw [View.set_slice_whole, Rect.mem_set_unit]
      intro a
      have h0 : (i 0 : Nat) < 32 := (i 0).isLt
      have h1 : (i 1 : Nat) < 100000 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 32 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 100000 from by decide +kernel]; omega⟩

/-- The run, read: the result array at `result`, the three argument arrays unchanged. -/
theorem run_out : θ_run defs (onTc (τ := τ) (main (F := F))) ⟨m, fun _ => 0, ρ⟩ fun r => ∀ c : Dev nD,
      r.2.mem ((c : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final_out m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Body

end
-- ==== Proof.KernelIdeal.Blocks.lean ====
import proofs.«157596_g77412490543564_cont_9to1_m_386_14_alg».proof.Proof.Gen.KernelIdeal.Frame
import proofs.«157596_g77412490543564_cont_9to1_m_386_14_alg».proof.Proof.Gen.KernelIdeal.Skeleton
import Idealize.ShloMosaic.Lib.Pipeline.Value
import proofs.«157596_g77412490543564_cont_9to1_m_386_14_alg».proof.Proof.KernelIdeal.Body
import Idealize.ShloMosaic.Lib.StableHlo.Run
import Idealize.ShloMosaic.Lib.ValueIdx
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx Idealize.ShloMosaic.StableHlo

variable (m : (ℓ : Loc nD τ sig) → Buf (Elt F) ℓ)

/-! ## The windows' blocks, entry by entry

Before the region @main re-lays the first argument: it keeps sequence position 7, drops that axis, splits the 2048
features into 64 chunks of 32 and brings the chunk axis to the front, so entry `(k, p, j)` of the [64, 32, 32]
array the first window stages is `X[p, 7, 32·k + j]`. The bias is viewed as one row [1, 100000]. At point `t` the
first window's block is chunk `t`, the second's is rows `32·t … 32·t + 31` of the weights, the third's is the bias row. -/

/-- The chunked activations as the region finds them. -/
theorem V_v4 (c : Dev nD) : (V m c main_v4 : S64x32x32.Idx → Elt F .f32) =
    transpose S64x32x32 [1, 0, 2] (shapeCast S32x64x32 (shapeCast S32x2048
      (extractStridedSlice S32x1x2048 ![0, 7, 0] (m ((c : Thread nD τ).loc main_arg0)) slices_S32x8x2048_S32x1x2048_0_7_0)
      shapeCasts_S32x1x2048_S32x2048) shapeCasts_S32x2048_S32x64x32) transposes_S32x64x32_S64x32x32_1_0_2 := by
  dsimp only [V, hostOps0]; after_results; rfl

/-- The bias row as the region finds it. -/
theorem V_v2 (c : Dev nD) : (V m c main_v2 : S1x100000.Idx → Elt F .f32) =
    shapeCast S1x100000 (m ((c : Thread nD τ).loc main_arg2)) shapeCasts_S100000_S1x100000 := by
  dsimp only [V, hostOps0]; after_results; rfl

/-- Entry `(k, p, j)` of the chunked activations is `X[p, 7, 32·k + j]`. -/
theorem V_v4_at (c : Dev nD) (k : Fin 64) (p : Fin 32) (j : Fin 32) :
    (V m c main_v4 : S64x32x32.Idx → Elt F .f32) (ix3 k p j)
      = (m ((c : Thread nD τ).loc main_arg0) : S32x8x2048.Idx → Elt F .f32) (ix3 p (7 : Fin 8) (⟨32 * k.val + j.val, by omega⟩ : Fin 2048)) := by
  rw [V_v4]
  refine (transpose_apply [1, 0, 2] _ transposes_S32x64x32_S64x32x32_1_0_2 (ix3 k p j) (ix3 p k j) (fun b => by
    match b with
    | ⟨0, _⟩ => rfl
    | ⟨1, _⟩ => rfl
    | ⟨2, _⟩ => rfl)).trans ?_
  refine (shapeCast_apply _ shapeCasts_S32x2048_S32x64x32 (ix3 p k j) (ix2 p (⟨32 * k.val + j.val, by omega⟩ : Fin 2048)) (by
    rw [Shape.rowMajor_val_two, Shape.rowMajor_val_three]
    show p.val * 2048 + (32 * k.val + j.val) = (p.val * 64 + k.val) * 32 + j.val
    omega)).trans ?_
  refine (shapeCast_apply _ shapeCasts_S32x1x2048_S32x2048 (ix2 p (⟨32 * k.val + j.val, by omega⟩ : Fin 2048))
    (ix3 p (0 : Fin 1) (⟨32 * k.val + j.val, by omega⟩ : Fin 2048)) (by
    rw [Shape.rowMajor_val_two, Shape.rowMajor_val_three]
    show (p.val * 1 + 0) * 2048 + (32 * k.val + j.val) = p.val * 2048 + (32 * k.val + j.val)
    omega)).trans ?_
  exact extractStridedSlice_apply ![0, 7, 0] _ slices_S32x8x2048_S32x1x2048_0_7_0
    (ix3 p (0 : Fin 1) (⟨32 * k.val + j.val, by omega⟩ : Fin 2048)) (ix3 p (7 : Fin 8) (⟨32 * k.val + j.val, by omega⟩ : Fin 2048)) (fun a => by
    match a with
    | ⟨0, _⟩ => show p.val = 0 + p.val; omega
    | ⟨1, _⟩ => show 7 = 7 + 0; rfl
    | ⟨2, _⟩ => show 32 * k.val + j.val = 0 + (32 * k.val + j.val); omega)

/-- Entry `(0, v)` of the bias row is `b[v]`. -/
theorem V_v2_at (c : Dev nD) (u : Fin 1) (v : Fin 100000) :
    (V m c main_v2 : S1x100000.Idx → Elt F .f32) (ix2 u v) = (m ((c : Thread nD τ).loc main_arg2) : S100000.Idx → Elt F .f32) (ix1 v) := by
  rw [V_v2]
  exact shapeCast_apply _ shapeCasts_S100000_S1x100000 (ix2 u v) (ix1 v) (by
    have hu : u.val = 0 := by omega
    rw [Shape.rowMajor_val_two, Shape.rowMajor_val_one]
    show v.val = u.val * 100000 + v.val
    omega)

/-- Where each window's block sits at point `t`, decided once over the grid. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

/-- The first window's block at point `t` is chunk `t` of the activations. -/
theorem blk0_at (c : Dev nD) (t : Fin cfg0.N) (y : S1x32x32.Idx) :
    (iblk m c 0 t : S1x32x32.Idx → Elt F .f32) y
      = (m ((c : Thread nD τ).loc main_arg0) : S32x8x2048.Idx → Elt F .f32)
          (ix3 (n0 := 32) (n1 := 8) (n2 := 2048) (y 1) (7 : Fin 8) ⟨32 * t.val + (y 2).val, by
            have := lt_of_lt_of_eq t.isLt (show cfg0.N = 64 from N_0); have h2 : (y 2).val < 32 := (y 2).isLt; show 32 * t.val + (y 2).val < 2048; omega⟩) := by
  have hN : t.val < 64 := lt_of_lt_of_eq t.isLt (show cfg0.N = 64 from N_0)
  have h0 : (y 0).val = 0 := by have h1 : (y 0).val < 1 := (y 0).isLt; omega
  show (V m c main_v4 : S64x32x32.Idx → Elt F .f32) (((cfg0.win 0).blk t).view.emb y) = _
  rw [show ((cfg0.win 0).blk t).view.emb y = ix3 (n0 := 64) (n1 := 32) (n2 := 32) (⟨t.val, hN⟩ : Fin 64) (y 1) (y 2) from funext fun a => Fin.ext (by
    match a with
    | ⟨0, _⟩ => show win0_0.index t 0 * 1 + 1 * (y 0).val = t.val; rw [(index0 t).1]; omega
    | ⟨1, _⟩ => show win0_0.index t 1 * 32 + 1 * (y 1).val = (y 1).val; rw [(index0 t).2.1]; omega
    | ⟨2, _⟩ => show win0_0.index t 2 * 32 + 1 * (y 2).val = (y 2).val; rw [(index0 t).2.2]; omega)]
  exact V_v4_at m c ⟨t.val, hN⟩ (y 1) (y 2)

/-- The second window's block at point `t` is rows `32·t …` of the weights. -/
theorem blk1_at (c : Dev nD) (t : Fin cfg0.N) (y : S32x100000.Idx) :
    (iblk m c 1 t : S32x100000.Idx → Elt F .f32) y
      = (m ((c : Thread nD τ).loc main_arg1) : S2048x100000.Idx → Elt F .f32)
          (ix2 (n0 := 2048) (n1 := 100000) ⟨32 * t.val + (y 0).val, by
            have := lt_of_lt_of_eq t.isLt (show cfg0.N = 64 from N_0); have h0 : (y 0).val < 32 := (y 0).isLt; show 32 * t.val + (y 0).val < 2048; omega⟩ (y 1)) := by
  have hN : t.val < 64 := lt_of_lt_of_eq t.isLt (show cfg0.N = 64 from N_0)
  show (V m c main_arg1 : S2048x100000.Idx → Elt F .f32) (((cfg0.win 1).blk t).view.emb y) = _
  rw [V_main_arg1]
  refine congrArg (m ((c : Thread nD τ).loc main_arg1) : S2048x100000.Idx → Elt F .f32) (funext fun a => Fin.ext (by
    match a with
    | ⟨0, _⟩ => show win0_1.index t 0 * 32 + 1 * (y 0).val = 32 * t.val + (y 0).val; rw [(index1 t).1]; omega
    | ⟨1, _⟩ => show win0_1.index t 1 * 100000 + 1 * (y 1).val = (y 1).val; rw [(index1 t).2]; omega))

/-- The third window's block at every point is the bias row. -/
theorem blk2_at (c : Dev nD) (t : Fin cfg0.N) (y : S1x100000.Idx) :
    (iblk m c 2 t : S1x100000.Idx → Elt F .f32) y
      = (m ((c : Thread nD τ).loc main_arg2) : S100000.Idx → Elt F .f32) (ix1 (n := 100000) (y 1)) := by
  show (V m c main_v2 : S1x100000.Idx → Elt F .f32) (((cfg0.win 2).blk t).view.emb y) = _
  rw [show ((cfg0.win 2).blk t).view.emb y = ix2 (n0 := 1) (n1 := 100000) (y 0) (y 1) from funext fun a => Fin.ext (by
    match a with
    | ⟨0, _⟩ => show win0_2.index t 0 * 1 + 1 * (y 0).val = (y 0).val; rw [(index2 t).1]; omega
    | ⟨1, _⟩ => show win0_2.index t 1 * 100000 + 1 * (y 1).val = (y 1).val; rw [(index2 t).2]; omega)]
  exact V_v2_at m c (y 0) (y 1)

end Cert.KernelIdeal.Body

end
-- ==== Proof.LibColumns.lean ====
/-
  A column kept as a unit last axis, read at an index: the two layout steps of a `keepdims` reduction — a vector
  `[a]` cast to a column `[a, 1]`, and a column `[a, 1]` broadcast along its unit axis to `[a, b]`. General in the
  extents and in the element type; they complement the library's leading-unit-axis casts and its row broadcast.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate
    `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelIdeal.Payloads.lean ====
/-
  The kernel body's pure payloads, read at an index over the extended reals.

  One grid step multiplies a `[32, 32]` block of the left operand by a `[32, 100000]` block of the right operand;
  the first step adds the bias row to the product, every later step adds the product to what the output block
  already holds. The last step then takes, row by row, the maximum of the accumulated logits, the exponentials of
  the logits shifted by it, their sum, and the product of each exponential with the reciprocal of the sum. Each of
  these values is a composition of layout operations (casts that add or drop a unit axis, broadcasts of a row or a
  column), a contraction, reductions along the row, and pointwise arithmetic; read at an index `(p, v)` they are
  the closed forms below, with no layout operation left.
-/
import proofs.«157596_g77412490543564_cont_9to1_m_386_14_alg».proof.Proof.Gen.KernelIdeal.Skeleton
import proofs.«157596_g77412490543564_cont_9to1_m_386_14_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadsAt

open Cert.KernelIdeal Cert.KernelIdeal.Gen Idealize.ShloMosaic Idealize.ShloMosaic.ValueIdx

/-! ## The block product -/

/-- The left operand's index of the product at output `(r, c)` and contraction position `q` has row `r`. -/
theorem lhs_0 (i : S32x100000.Idx) (q : dot_S32x32_S32x100000_S32x100000_1_0_0_1_n_n.contr.Idx) :
    (dot_S32x32_S32x100000_S32x100000_1_0_0_1_n_n.lhsIdx i q 0).val = (i 0).val := by
  unfold DotDims.lhsIdx
  rw [dif_neg (show ¬(0 : Fin S32x32.rank) ∈ dot_S32x32_S32x100000_S32x100000_1_0_0_1_n_n.lhsBatch by decide),
    dif_pos (show (0 : Fin S32x32.rank) ∈ dot_S32x32_S32x100000_S32x100000_1_0_0_1_n_n.lhsNonContracting by decide)]
  rfl

/-- … and column the contraction position. -/
theorem lhs_1 (i : S32x100000.Idx) (q : dot_S32x32_S32x100000_S32x100000_1_0_0_1_n_n.contr.Idx) :
    (dot_S32x32_S32x100000_S32x100000_1_0_0_1_n_n.lhsIdx i q 1).val = (q ⟨0, by decide⟩).val :=
  dot_S32x32_S32x100000_S32x100000_1_0_0_1_n_n.lhsIdx_val_of_single rfl i q

/-- The right operand's index has row the contraction position … -/
theorem rhs_0 (i : S32x100000.Idx) (q : dot_S32x32_S32x100000_S32x100000_1_0_0_1_n_n.contr.Idx) :
    (dot_S32x32_S32x100000_S32x100000_1_0_0_1_n_n.rhsIdx i q 0).val = (q ⟨0, by decide⟩).val :=
  dot_S32x32_S32x100000_S32x100000_1_0_0_1_n_n.rhsIdx_val_of_single rfl i q

/-- … and column `c`. -/
theorem rhs_1 (i : S32x100000.Idx) (q : dot_S32x32_S32x100000_S32x100000_1_0_0_1_n_n.contr.Idx) :
    (dot_S32x32_S32x100000_S32x100000_1_0_0_1_n_n.rhsIdx i q 1).val = (i 1).val := by
  unfold DotDims.rhsIdx
  rw [dif_neg (show ¬(1 : Fin S32x100000.rank) ∈ dot_S32x32_S32x100000_S32x100000_1_0_0_1_n_n.rhsBatch by decide),
    dif_pos (show (1 : Fin S32x100000.rank) ∈ dot_S32x32_S32x100000_S32x100000_1_0_0_1_n_n.rhsNonContracting by decide)]
  rfl

/-- **The block product at an index**: the `[32, 32]` block of the left operand (given with a leading unit axis)
    times the `[32, 100000]` block of the right operand, accumulated into zero, is at `(p, v)` the sum over the 32
    contraction positions of the products. -/
theorem pay1_at (x0 : Vec Ideal S1x32x32 .f32) (x1 : Vec Ideal S32x100000 .f32) (p : Fin 32) (v : Fin 100000) :
    k0_pay1 (F := Ideal) x0 x1 (ix2 p v) = ∑ j : Fin 32, x0 (ix3 (0 : Fin 1) p j) * x1 (ix2 j v) := by
  unfold k0_pay1
  simp only [matmul]
  refine (Ideal.matmul_constant_zero_apply dot_S32x32_S32x100000_S32x100000_1_0_0_1_n_n none _ _ _).trans ?_
  rw [← Equiv.sum_comp (contrEquiv1 dot_S32x32_S32x100000_S32x100000_1_0_0_1_n_n 32 rfl rfl).symm]
  refine Finset.sum_congr rfl fun k _ => ?_
  have hk := contrEquiv1_symm_val dot_S32x32_S32x100000_S32x100000_1_0_0_1_n_n 32 rfl rfl k
  have el : dot_S32x32_S32x100000_S32x100000_1_0_0_1_n_n.lhsIdx (ix2 p v)
      ((contrEquiv1 dot_S32x32_S32x100000_S32x100000_1_0_0_1_n_n 32 rfl rfl).symm k) = ix2 p k :=
    funext fun a => Fin.ext (by
      match a with
      | ⟨0, _⟩ => exact lhs_0 _ _
      | ⟨1, _⟩ => exact (lhs_1 _ _).trans hk)
  have er : dot_S32x32_S32x100000_S32x100000_1_0_0_1_n_n.rhsIdx (ix2 p v)
      ((contrEquiv1 dot_S32x32_S32x100000_S32x100000_1_0_0_1_n_n 32 rfl rfl).symm k) = ix2 k v :=
    funext fun a => Fin.ext (by
      match a with
      | ⟨0, _⟩ => exact (rhs_0 _ _).trans hk
      | ⟨1, _⟩ => exact rhs_1 _ _)
  rw [el, er, shapeCast_1ab_ab_apply]

/-- **The later steps**: the block product added to what the output block holds. -/
theorem pay3_at (x0 : Vec Ideal S1x32x32 .f32) (x1 : Vec Ideal S32x100000 .f32) (xo : Vec Ideal S32x100000 .f32)
    (p : Fin 32) (v : Fin 100000) :
    k0_pay3 (F := Ideal) x0 x1 xo (ix2 p v) = xo (ix2 p v) + ∑ j : Fin 32, x0 (ix3 (0 : Fin 1) p j) * x1 (ix2 j v) := by
  unfold k0_pay3
  rw [addf_apply, pay1_at, shapeCast_self]

/-- **The first step**: the block product plus the bias row, broadcast over the 32 rows. -/
theorem pay2_at (x0 : Vec Ideal S1x32x32 .f32) (x1 : Vec Ideal S32x100000 .f32) (x2 : Vec Ideal S1x100000 .f32)
    (p : Fin 32) (v : Fin 100000) :
    k0_pay2 (F := Ideal) x0 x1 x2 (ix2 p v)
      = (∑ j : Fin 32, x0 (ix3 (0 : Fin 1) p j) * x1 (ix2 j v)) + x2 (ix2 (0 : Fin 1) v) := by
  unfold k0_pay2
  rw [addf_apply, pay1_at, broadcastTo_1b_ab_apply, shapeCast_self]

/-! ## The row reductions of the last step -/

/-- The single-precision pattern of `−∞` denotes `⊥`. -/
theorem neg_inf_bits : Ideal.ofBits .f32 0xFF800000#32 = (⊥ : EReal) := by
  simp [Ideal.ofBits, Ideal.ieee]

/-- The single-precision pattern of `1.0` denotes `1`. -/
theorem one_bits : Ideal.ofBits .f32 0x3F800000#32 = (1 : EReal) := by
  simp [Ideal.ofBits, Ideal.ieee]
  rw [← EReal.coe_mul]
  norm_num

/-- A row index with the column coordinate put back. -/
theorem lift_row (p : Fin 32) (k : Fin (S32x100000.size 1)) :
    reduces_S32x100000_S32.lift (ix1 p) k = ix2 p (⟨k.val, k.isLt⟩ : Fin 100000) := by
  funext c; apply Fin.ext
  fin_cases c <;> rfl

/-- The reduction by maximum along a row, from `−∞`, is the fold of `max` from `⊥` over the row. -/
theorem rowMax_at (o : Vec Ideal S32x100000 .f32) (p : Fin 32) :
    multiReduction (F := Ideal) .maximumf [1] S32 o 0xFF800000#32 reduces_S32x100000_S32 (.inl rfl) rfl (ix1 p)
      = (Finset.univ : Finset (Fin 100000)).fold max ⊥ (fun u => o (ix2 p u)) := by
  refine (Ideal.multiReduction_maximumf_single o _ reduces_S32x100000_S32 _ _ (ix1 p)).trans ?_
  have hf : (o ∘ reduces_S32x100000_S32.lift (ix1 p)) = fun u : Fin 100000 => o (ix2 p u) :=
    funext fun k => congrArg o (lift_row p k)
  have hb : FloatOps.ofBits (F := Ideal) .f32 0xFF800000#32 = (⊥ : EReal) := by
    rw [Ideal.ofBits_def, neg_inf_bits]
  rw [hb]
  exact congrArg (fun f : Fin 100000 → EReal => Finset.fold max ⊥ f Finset.univ) hf

/-- The reduction by addition along a row is the sum over the row. -/
theorem rowSum_at (e : Vec Ideal S32x100000 .f32) (p : Fin 32) :
    multiReduction (F := Ideal) .add [1] S32 e 0x00000000#32 reduces_S32x100000_S32 (.inl rfl) rfl (ix1 p)
      = ∑ u : Fin 100000, e (ix2 p u) := by
  refine (Ideal.multiReduction_add_single e _ reduces_S32x100000_S32 _ _ (ix1 p)).trans ?_
  exact Finset.sum_congr rfl fun k _ => congrArg e (lift_row p k)

/-- **The shifted exponentials**: the row maximum of the first array, kept as a column and broadcast back along
    the row, subtracted from the second array, exponentiated. -/
theorem pay4_at (o o' : Vec Ideal S32x100000 .f32) (p : Fin 32) (v : Fin 100000) :
    k0_pay4 (F := Ideal) o o' (ix2 p v)
      = Ideal.exp (o' (ix2 p v) - (Finset.univ : Finset (Fin 100000)).fold max ⊥ (fun u => o (ix2 p u))) := by
  unfold k0_pay4
  simp only [shapeCast_self]
  show Ideal.exp (o' (ix2 p v) - broadcastTo S32x100000 (shapeCast S32x1
    (multiReduction (F := Ideal) .maximumf [1] S32 o 0xFF800000#32 reduces_S32x100000_S32 (.inl rfl) rfl)
    shapeCasts_S32_S32x1) broadcasts_S32x1_S32x100000 (ix2 p v)) = _
  rw [broadcastTo_a1_ab_apply, shapeCast_a_a1_apply, rowMax_at]

/-- **The normalisation**: the row sum of the first array, kept as a column; its reciprocal `1 / sum`; broadcast
    back along the row and multiplied into the second array. -/
theorem pay5_at (e e' : Vec Ideal S32x100000 .f32) (p : Fin 32) (v : Fin 100000) :
    k0_pay5 (F := Ideal) e e' (ix2 p v) = e' (ix2 p v) * Ideal.div 1 (∑ u : Fin 100000, e (ix2 p u)) := by
  unfold k0_pay5
  simp only [shapeCast_self]
  show e' (ix2 p v) * broadcastTo S32x100000 (divf (broadcast S32x1 (Scalar.ofBits (F := Ideal) .f32 0x3F800000#32))
    (shapeCast S32x1 (multiReduction (F := Ideal) .add [1] S32 e 0x00000000#32 reduces_S32x100000_S32 (.inl rfl) rfl)
    shapeCasts_S32_S32x1)) broadcasts_S32x1_S32x100000 (ix2 p v) = _
  rw [broadcastTo_a1_ab_apply, divf_apply, broadcast_apply, shapeCast_a_a1_apply, rowSum_at]
  show e' (ix2 p v) * Ideal.div (Ideal.ofBits .f32 0x3F800000#32) _ = _
  rw [one_bits]

end Cert.KernelIdeal.PayloadsAt

end
-- ==== Proof.Spec.lean ====
/-
  The function both programs compute, index by index over the extended reals.

  For a batch row `p` only the LAST of the eight sequence positions survives, so the result at `(p, v)` is the
  softmax over the vocabulary axis of the row of logits
      logit p v = (∑ d, X[p, 7, d] · W[d, v]) + b[v],
  written as jnp writes a softmax: with `M p` the row's maximum (a fold of `max` from `⊥`),
      G (p, v) = exp (logit p v − M p) / ∑ u, exp (logit p u − M p),
  the quotient being the extended reals' division with its conventions at a zero divisor (`Ideal.div`).
  No program is imported here: the shapes are literal.
-/
import Idealize.ShloMosaic.PureOps.Ideal
import Idealize.ShloMosaic.Lib.ValueIdx

noncomputable section

open scoped BigOperators

namespace Cert.LastSoftmax

open Idealize.ShloMosaic Idealize.ShloMosaic.ValueIdx

/-- The logit of batch row `p` at vocabulary entry `v`, at the last sequence position: the contraction over the
    2048 features plus the bias. -/
def logit (X : (⟨3, ![32, 8, 2048]⟩ : Shape).Idx → EReal) (W : (⟨2, ![2048, 100000]⟩ : Shape).Idx → EReal)
    (b : (⟨1, ![100000]⟩ : Shape).Idx → EReal) (p : Fin 32) (v : Fin 100000) : EReal :=
  (∑ d : Fin 2048, X (ix3 p (7 : Fin 8) d) * W (ix2 d v)) + b (ix1 v)

/-- A row's maximum: the fold of `max` over the vocabulary from `⊥`. -/
def rowMax (L : Fin 100000 → EReal) : EReal := (Finset.univ : Finset (Fin 100000)).fold max ⊥ L

/-- A row's sum of shifted exponentials. -/
def rowSum (L : Fin 100000 → EReal) : EReal := ∑ u : Fin 100000, Ideal.exp (L u - rowMax L)

/-- The softmax of one row at one entry, as a quotient. -/
def softmaxRow (L : Fin 100000 → EReal) (v : Fin 100000) : EReal :=
  Ideal.div (Ideal.exp (L v - rowMax L)) (rowSum L)

/-- The whole result array as one function of the three argument arrays. -/
def G (X : (⟨3, ![32, 8, 2048]⟩ : Shape).Idx → EReal) (W : (⟨2, ![2048, 100000]⟩ : Shape).Idx → EReal)
    (b : (⟨1, ![100000]⟩ : Shape).Idx → EReal) : (⟨2, ![32, 100000]⟩ : Shape).Idx → EReal :=
  fun i => softmaxRow (logit X W b (i 0)) (i 1)

end Cert.LastSoftmax

end
-- ==== Proof.SoftmaxLaw.lean ====
/-
  Extended-real algebra behind the softmax of one row of logits.

  Four facts, none of which mentions a program:

  * a logit built from real entries is real (a finite sum of products of reals plus a real);
  * on a row of real logits the product form `exp (L v − M) · (1 / S)` equals the quotient form
    `exp (L v − M) / S`, where `M` is the row's maximum and `S` the row's sum of shifted exponentials.
    The two forms differ only at a zero divisor, and `S` is not zero: `M` is real (a maximum of finitely
    many reals, at least one), so every shifted exponential is a positive real and so is their sum;
  * a sum over 2048 indices may be taken in 64 consecutive blocks of 32;
  * a sequence that starts at `g 0 + c` and adds `g (t + 1)` at step `t + 1` has reached
    `(∑ k ≤ n, g k) + c` after `n` steps. Addition of extended reals is commutative and associative
    without any finiteness assumption, so the last two facts hold for arbitrary entries.
-/
import proofs.«157596_g77412490543564_cont_9to1_m_386_14_alg».proof.Proof.Spec
import Mathlib.Data.EReal.Operations
import Mathlib.Data.EReal.Inv
import Mathlib.Data.Finset.Fold
import Mathlib.Algebra.BigOperators.Fin
import Mathlib.Analysis.SpecialFunctions.Exp

noncomputable section

open scoped BigOperators

namespace Cert.LastSoftmax

open Idealize.ShloMosaic Idealize.ShloMosaic.ValueIdx

/-- A finite sum of reals, taken in the extended reals, is the real sum. -/
theorem coe_sum_real {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- **1.** Real inputs give real logits. -/
theorem logit_real {X : (⟨3, ![32, 8, 2048]⟩ : Shape).Idx → EReal} {W : (⟨2, ![2048, 100000]⟩ : Shape).Idx → EReal}
    {b : (⟨1, ![100000]⟩ : Shape).Idx → EReal}
    (hX : ∀ i, ∃ r : ℝ, X i = (r : EReal)) (hW : ∀ i, ∃ r : ℝ, W i = (r : EReal))
    (hb : ∀ i, ∃ r : ℝ, b i = (r : EReal)) (p : Fin 32) (v : Fin 100000) :
    ∃ r : ℝ, logit X W b p v = (r : EReal) := by
  choose x hx using hX
  choose w hw using hW
  choose c hc using hb
  refine ⟨(∑ d : Fin 2048, x (ix3 p (7 : Fin 8) d) * w (ix2 d v)) + c (ix1 v), ?_⟩
  unfold logit
  simp only [hx, hw, hc, ← EReal.coe_mul]
  rw [coe_sum_real, ← EReal.coe_add]

/-- The maximum of a row of reals is real: it lies above the row's first entry and below `⊤`. -/
theorem rowMax_real (L : Fin 100000 → EReal) (hL : ∀ v, ∃ r : ℝ, L v = (r : EReal)) :
    ∃ M : ℝ, rowMax L = (M : EReal) := by
  choose l hl using hL
  have hbot : (⊥ : EReal) < rowMax L := by
    unfold rowMax
    rw [Finset.lt_fold_max]
    exact Or.inr ⟨(0 : Fin 100000), Finset.mem_univ _, by rw [hl]; exact EReal.bot_lt_coe _⟩
  have htop : rowMax L < (⊤ : EReal) := by
    unfold rowMax
    rw [Finset.fold_max_lt]
    exact ⟨bot_lt_top, fun v _ => by rw [hl]; exact EReal.coe_lt_top _⟩
  exact ⟨(rowMax L).toReal, (EReal.coe_toReal htop.ne hbot.ne').symm⟩

/-- On a row of reals every shifted exponential is a positive real. -/
theorem exp_shift_pos (L : Fin 100000 → EReal) (hL : ∀ v, ∃ r : ℝ, L v = (r : EReal)) (v : Fin 100000) :
    ∃ e : ℝ, 0 < e ∧ Ideal.exp (L v - rowMax L) = (e : EReal) := by
  obtain ⟨M, hM⟩ := rowMax_real L hL
  obtain ⟨r, hr⟩ := hL v
  exact ⟨Real.exp (r - M), Real.exp_pos _, by rw [hM, hr, ← EReal.coe_sub, Ideal.exp_coe]⟩

/-- On a row of reals the sum of shifted exponentials is not zero. -/
theorem rowSum_ne_zero (L : Fin 100000 → EReal) (hL : ∀ v, ∃ r : ℝ, L v = (r : EReal)) : rowSum L ≠ 0 := by
  choose e he0 he using exp_shift_pos L hL
  have hs : rowSum L = ((∑ u : Fin 100000, e u : ℝ) : EReal) := by
    unfold rowSum
    simp only [he]
    exact coe_sum_real _ _
  have hpos : 0 < ∑ u : Fin 100000, e u :=
    Finset.sum_pos (fun u _ => he0 u) ⟨(0 : Fin 100000), Finset.mem_univ _⟩
  rw [hs]
  exact_mod_cast hpos.ne'

/-- **2.** On a row of real logits, multiplying by the reciprocal of the row sum is dividing by it. -/
theorem mul_inv_eq_softmaxRow (L : Fin 100000 → EReal) (hL : ∀ v, ∃ r : ℝ, L v = (r : EReal)) (v : Fin 100000) :
    Ideal.exp (L v - rowMax L) * Ideal.div 1 (rowSum L) = softmaxRow L v := by
  have hs := rowSum_ne_zero L hL
  unfold softmaxRow Ideal.div
  rw [if_neg hs, if_neg hs, one_mul]

/-- **3.** A sum over 2048 indices, taken in 64 consecutive blocks of 32. -/
theorem sum_chunks (f : Fin 2048 → EReal) :
    ∑ k : Fin 64, ∑ j : Fin 32, f ⟨32 * k.val + j.val, by omega⟩ = ∑ d : Fin 2048, f d := by
  rw [← Fintype.sum_prod_type' (f := fun (k : Fin 64) (j : Fin 32) => f ⟨32 * k.val + j.val, by omega⟩)]
  exact Fintype.sum_equiv (finProdFinEquiv (m := 64) (n := 32)) _ _
    (fun x => congrArg f (Fin.ext (by simp [finProdFinEquiv]; omega)))

/-- **4.** Running accumulation: starting from `g 0 + c` and adding `g (t + 1)` at step `t + 1` gives,
    after `n` steps, the sum of `g` over `0 … n` plus `c`. -/
theorem accumulate_eq (g : ℕ → EReal) (c : EReal) (a : ℕ → EReal) (h0 : a 0 = g 0 + c)
    (hs : ∀ t, a (t + 1) = a t + g (t + 1)) (n : ℕ) :
    a n = (∑ k ∈ Finset.range (n + 1), g k) + c := by
  induction n with
  | zero => rw [h0, Finset.sum_range_one]
  | succ n ih => rw [hs, ih, Finset.sum_range_succ _ (n + 1), add_right_comm]

end Cert.LastSoftmax

end
-- ==== Proof.KernelIdeal.Value.lean ====
import proofs.«157596_g77412490543564_cont_9to1_m_386_14_alg».proof.Proof.Gen.KernelIdeal.Frame
import proofs.«157596_g77412490543564_cont_9to1_m_386_14_alg».proof.Proof.Gen.KernelIdeal.Skeleton
import Idealize.ShloMosaic.Lib.Pipeline.Value
import proofs.«157596_g77412490543564_cont_9to1_m_386_14_alg».proof.Proof.KernelIdeal.Final
import proofs.«157596_g77412490543564_cont_9to1_m_386_14_alg».proof.Proof.KernelIdeal.Blocks
import proofs.«157596_g77412490543564_cont_9to1_m_386_14_alg».proof.Proof.KernelIdeal.Payloads
import proofs.«157596_g77412490543564_cont_9to1_m_386_14_alg».proof.Proof.SoftmaxLaw
import proofs.«157596_g77412490543564_cont_9to1_m_386_14_alg».proof.Proof.Spec
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LastSoftmax Cert.KernelIdeal.PayloadsAt
open scoped BigOperators

variable (m : (ℓ : Loc nD τ sig) → Buf (Elt Ideal) ℓ)

/-! ## The kernel's result is the specification's function

At the exact instance, entry `(p, v)` of the output's staging buffer after point `n < 63` is the bias `b[v]` plus the
shares of chunks `0 … n` of the contraction, `∑ j, X[p, 7, 32·k + j] · W[32·k + j, v]`: the first point stores
share 0 plus the bias, each later point adds its share. After the last point's addition the entry is the whole
logit (the 64 shares of 32 are the 2048 terms). The last point then replaces the buffer by the exponentials of the
logits less their row maximum, and then by those times the reciprocal of their row sum — which, the logits being
real numbers when the inputs are, is the quotient the specification states. -/

/-- The three argument arrays of core `c`, as functions of an index. -/
abbrev argX (c : Dev nD) : (⟨3, ![32, 8, 2048]⟩ : Shape).Idx → EReal := m ((c : Thread nD τ).loc main_arg0)
abbrev argW (c : Dev nD) : (⟨2, ![2048, 100000]⟩ : Shape).Idx → EReal := m ((c : Thread nD τ).loc main_arg1)
abbrev argB (c : Dev nD) : (⟨1, ![100000]⟩ : Shape).Idx → EReal := m ((c : Thread nD τ).loc main_arg2)

/-- Chunk `k`'s share of the logit at `(p, v)`. -/
def share (c : Dev nD) (p : Fin 32) (v : Fin 100000) (k : ℕ) : EReal :=
  if h : k < 64 then
    ∑ j : Fin 32, argX m c (ix3 p (7 : Fin 8) (⟨32 * k + j.val, by omega⟩ : Fin 2048)) * argW m c (ix2 (⟨32 * k + j.val, by omega⟩ : Fin 2048) v)
  else 0

/-- The product of point `t`'s two blocks at `(p, v)` is chunk `t`'s share. -/
theorem blocks_share (c : Dev nD) (t : Fin cfg0.N) (p : Fin 32) (v : Fin 100000)
    (x0 : Vec Ideal S1x32x32 .f32) (x1 : Vec Ideal S32x100000 .f32) (h0 : x0 = iblk m c 0 t) (h1 : x1 = iblk m c 1 t) :
    ∑ j : Fin 32, x0 (ix3 (0 : Fin 1) p j) * x1 (ix2 j v) = share m c p v t.val := by
  have hN : t.val < 64 := lt_of_lt_of_eq t.isLt (show cfg0.N = 64 from N_0)
  subst h0 h1
  unfold share; rw [dif_pos hN]
  refine Finset.sum_congr rfl fun j _ => ?_
  rw [blk0_at, blk1_at]

/-- The running contents before the last point: the bias plus the shares so far. -/
theorem outsAt_at (c : Dev nD) : ∀ (n : ℕ) (hn : n < cfg0.N), n < 63 → ∀ (p : Fin 32) (v : Fin 100000),
    (outsAt m c n hn : S32x100000.Idx → EReal) (ix2 p v) = (∑ k ∈ Finset.range (n + 1), share m c p v k) + argB m c (ix1 v)
  | 0, hn, _, p, v => by
    show k0_pay2 (F := Ideal) (iblk m c 0 ⟨0, hn⟩) (iblk m c 1 ⟨0, hn⟩) (iblk m c 2 ⟨0, hn⟩) (ix2 p v) = _
    rw [pay2_at, blocks_share m c ⟨0, hn⟩ p v _ _ rfl rfl, blk2_at, Finset.sum_range_one]
  | n + 1, hn, h63, p, v => by
    have e : outsAt m c (n + 1) hn = k0_pay3 (iblk m c 0 ⟨n + 1, hn⟩) (iblk m c 1 ⟨n + 1, hn⟩) (outsAt m c n (Nat.lt_of_succ_lt hn)) :=
      outsAt_middle m c ⟨n + 1, hn⟩ (Nat.succ_ne_zero n) (by show n + 1 ≠ 63; omega)
    rw [e, pay3_at, outsAt_at c n (Nat.lt_of_succ_lt hn) (by omega) p v, blocks_share m c ⟨n + 1, hn⟩ p v _ _ rfl rfl,
      Finset.sum_range_succ _ (n + 1)]
    exact add_right_comm _ _ _

/-- After the last point's addition the buffer holds the logits. -/
theorem logits_at (c : Dev nD) (p : Fin 32) (v : Fin 100000) :
    (k0_pay3 (F := Ideal) (iblk m c 0 tLast) (iblk m c 1 tLast)
        (outsAt m c (tLast.val - 1) (Nat.lt_of_le_of_lt (Nat.sub_le _ _) tLast.isLt)) : S32x100000.Idx → EReal) (ix2 p v)
      = logit (argX m c) (argW m c) (argB m c) p v := by
  rw [pay3_at, outsAt_at m c (tLast.val - 1) _ (by show 63 - 1 < 63; decide) p v, blocks_share m c tLast p v _ _ rfl rfl]
  show ((∑ k ∈ Finset.range 63, share m c p v k) + argB m c (ix1 v)) + share m c p v 63 = _
  rw [add_right_comm, ← Finset.sum_range_succ]
  unfold logit
  congr 1
  rw [Finset.sum_range (fun k => share m c p v k),
    ← sum_chunks (fun d => argX m c (ix3 p (7 : Fin 8) d) * argW m c (ix2 d v))]
  refine Finset.sum_congr rfl fun k _ => ?_
  unfold share; rw [dif_pos k.isLt]

/-- The kernel's result array is the specification's function of the three argument arrays, when these hold reals. -/
theorem result_eq_G (c : Dev nD) (hX : ∀ i, ∃ r : ℝ, argX m c i = (r : EReal)) (hW : ∀ i, ∃ r : ℝ, argW m c i = (r : EReal))
    (hb : ∀ i, ∃ r : ℝ, argB m c i = (r : EReal)) :
    result m c = G (argX m c) (argW m c) (argB m c) := by
  funext i
  obtain ⟨p, v, rfl⟩ : ∃ (p : Fin 32) (v : Fin 100000), i = ix2 p v := ⟨i 0, i 1, eq_ix2 i⟩
  show (outsAt m c tLast.val tLast.isLt : S32x100000.Idx → EReal) (ix2 p v) = softmaxRow (logit (argX m c) (argW m c) (argB m c) p) v
  rw [outsAt_last m c tLast rfl]
  unfold lastOut
  rw [pay5_at]
  simp only [pay4_at, logits_at]
  exact mul_inv_eq_softmaxRow (logit (argX m c) (argW m c) (argB m c) p) (fun u => logit_real hX hW hb p u) v

end Cert.KernelIdeal.Body

end
-- ==== Proof.RefValue.lean ====
/-
  The reference's run read back: its result array is the specification's function `G` of the three argument arrays.

  The reference forms the logits `(∑ d, X[p, s, d] · W[d, v]) + b[v]` for all eight sequence positions `s`, takes the
  softmax along `v` of every row in its numerically stable form — the row's maximum from `−∞`, taken once more
  against `−∞`; the exponentials of the shifted logits; their sum from `0`; the quotient — and keeps the rows with
  `s = 7`, reshaped to `[32, 100000]`. Read at a result index `(p, v)`, the slice and the reshape pick the entry
  `(p, 7, v)`, every broadcast reads its operand at the same row, `max ⊥ x = x` and `0 + x = x`: what is left is the
  specification's `softmaxRow (logit X W b p) v`. Nothing here needs the entries to be finite.
-/
import proofs.«157596_g77412490543564_cont_9to1_m_386_14_alg».proof.Proof.Gen.ReferenceIdeal.Read
import proofs.«157596_g77412490543564_cont_9to1_m_386_14_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.Read Cert.LastSoftmax

variable (x0 : (⟨S32x8x2048, .f32⟩ : BufTy).Contents (Elt Ideal)) (x1 : (⟨S2048x100000, .f32⟩ : BufTy).Contents (Elt Ideal))
  (x2 : (⟨S100000, .f32⟩ : BufTy).Contents (Elt Ideal))

/-- The single-precision pattern of `−∞` denotes `⊥`. -/
theorem neg_inf_bits : Ideal.ofBits .f32 0xFF800000#32 = (⊥ : EReal) := by
  simp [Ideal.ofBits, Ideal.ieee]

/-- The all-zero pattern denotes `0`. -/
theorem zero_bits : Ideal.ofBits .f32 0x00000000#32 = (0 : EReal) := by
  simp [Ideal.ofBits, Ideal.ieee]

/-- The logits array at the last sequence position is the specification's logit: the contraction is a sum over
    the 2048 features, the bias is broadcast along the first two axes. -/
theorem v3_at (p : Fin 32) (v : Fin 100000) :
    val_main_v3 (F := Ideal) x0 x1 x2 (ix3 p (7 : Fin 8) v) = logit x0 x1 x2 p v := by
  rw [val_main_v3_apply, val_main_v0_apply, val_main_v2_apply, val_main_v1_apply, Ideal.addf_def]
  unfold logit
  have hl : ∀ d : Fin 2048, lidx_main_v0 (ix3 p (7 : Fin 8) v) d = ix3 p (7 : Fin 8) d := fun d => by
    funext a; match a with | ⟨0, _⟩ => rfl | ⟨1, _⟩ => rfl | ⟨2, _⟩ => rfl
  have hr : ∀ d : Fin 2048, ridx_main_v0 (ix3 p (7 : Fin 8) v) d = ix2 d v := fun d => by
    funext a; match a with | ⟨0, _⟩ => rfl | ⟨1, _⟩ => rfl
  have hb : idx_main_v1 (idx_main_v2 (ix3 p (7 : Fin 8) v)) = ix1 v := by
    funext a; match a with | ⟨0, _⟩ => rfl
  simp only [hl, hr, hb]

/-- Dropping the vocabulary axis of the logits' shape leaves the shape of the rows. -/
theorem reduces_d2 : S32x8x100000.Reduces [2] S32x8 := by decide

/-- A row index with the vocabulary coordinate put back. -/
theorem lift_ix3 (p : Fin 32) (s : Fin 8) (k : Fin (S32x8x100000.size 2)) :
    reduces_d2.lift (ix2 p s) k = ix3 p s (⟨k.val, k.isLt⟩ : Fin 100000) := by
  funext c; apply Fin.ext
  fin_cases c <;> rfl

/-- The reduction by maximum along the vocabulary, at the last sequence position, is the row's maximum. -/
theorem v4_at (p : Fin 32) :
    val_main_v4 (F := Ideal) x0 x1 x2 (ix2 p (7 : Fin 8)) = rowMax (logit x0 x1 x2 p) := by
  unfold val_main_v4
  rw [Host.reduce_eq_fold_single FloatOps.maximumf _ _ reducesTo_S32x8x100000_S32x8_d2 reduces_d2 h_S_]
  have hf : (val_main_v3 (F := Ideal) x0 x1 x2 ∘ reduces_d2.lift (ix2 p (7 : Fin 8))) = logit x0 x1 x2 p :=
    funext fun k => by
      show val_main_v3 (F := Ideal) x0 x1 x2 (reduces_d2.lift (ix2 p (7 : Fin 8)) k) = _
      rw [lift_ix3, v3_at]
      rfl
  have hb : val_main_cst (F := Ideal) (Shape.Idx.first h_S_) = (⊥ : EReal) := by
    rw [val_main_cst_apply, Ideal.ofBits_def, neg_inf_bits]
  rw [hb]
  exact congrArg (fun f : Fin 100000 → EReal => Finset.fold max ⊥ f Finset.univ) hf

/-- Taking the maximum with `−∞` once more changes nothing. -/
theorem v6_at (p : Fin 32) :
    val_main_v6 (F := Ideal) x0 x1 x2 (ix2 p (7 : Fin 8)) = rowMax (logit x0 x1 x2 p) := by
  rw [val_main_v6_apply, val_main_v5_apply, val_main_cst_0_apply, v4_at, Ideal.maximumf_def, Ideal.ofBits_def,
    neg_inf_bits, max_eq_right bot_le]

/-- The row maximum broadcast back along the vocabulary. -/
theorem v8_at (p : Fin 32) (v : Fin 100000) :
    val_main_v8 (F := Ideal) x0 x1 x2 (ix3 p (7 : Fin 8) v) = rowMax (logit x0 x1 x2 p) := by
  rw [val_main_v8_apply, val_main_v7_apply]
  have h : idx_main_v7 (idx_main_v8 (ix3 p (7 : Fin 8) v)) = ix2 p (7 : Fin 8) := by
    funext a; match a with | ⟨0, _⟩ => rfl | ⟨1, _⟩ => rfl
  rw [h, v6_at]

/-- The shifted exponential. -/
theorem v10_at (p : Fin 32) (v : Fin 100000) :
    val_main_v10 (F := Ideal) x0 x1 x2 (ix3 p (7 : Fin 8) v)
      = Ideal.exp (logit x0 x1 x2 p v - rowMax (logit x0 x1 x2 p)) := by
  rw [val_main_v10_apply, val_main_v9_apply, v3_at, v8_at, Ideal.hostUnary_exp_def, Ideal.subf_def]

/-- The sum of the shifted exponentials along the vocabulary, from `0`. -/
theorem v11_at (p : Fin 32) :
    val_main_v11 (F := Ideal) x0 x1 x2 (ix2 p (7 : Fin 8)) = rowSum (logit x0 x1 x2 p) := by
  rw [val_main_v11_apply, val_main_cst_1_apply, Ideal.ofBits_def, zero_bits, zero_add]
  unfold rowSum
  refine Finset.sum_congr rfl fun u _ => ?_
  have h : idx_main_v11 (ix2 p (7 : Fin 8)) u = ix3 p (7 : Fin 8) u := by
    funext a; match a with | ⟨0, _⟩ => rfl | ⟨1, _⟩ => rfl | ⟨2, _⟩ => rfl
  rw [h, v10_at]

/-- The row sum broadcast back along the vocabulary. -/
theorem v13_at (p : Fin 32) (v : Fin 100000) :
    val_main_v13 (F := Ideal) x0 x1 x2 (ix3 p (7 : Fin 8) v) = rowSum (logit x0 x1 x2 p) := by
  rw [val_main_v13_apply, val_main_v12_apply]
  have h : idx_main_v12 (idx_main_v13 (ix3 p (7 : Fin 8) v)) = ix2 p (7 : Fin 8) := by
    funext a; match a with | ⟨0, _⟩ => rfl | ⟨1, _⟩ => rfl
  rw [h, v11_at]

/-- The quotient. -/
theorem v14_at (p : Fin 32) (v : Fin 100000) :
    val_main_v14 (F := Ideal) x0 x1 x2 (ix3 p (7 : Fin 8) v) = softmaxRow (logit x0 x1 x2 p) v := by
  rw [val_main_v14_apply, v10_at, v13_at, Ideal.hostDivf_def]
  rfl

/-- **The reference's result, index by index**: the slice at the last sequence position followed by the reshape
    reads the quotient array at `(i 0, 7, i 1)`. -/
theorem ref_apply (i : S32x100000.Idx) :
    val_main_v16 (F := Ideal) x0 x1 x2 i = softmaxRow (logit x0 x1 x2 (i 0)) (i 1) := by
  rw [val_main_v16_apply, val_main_v15_apply]
  have h0 := idx2_lt0 i
  have h1 := idx2_lt1 i
  have hj : idx_main_v15 (idx_main_v16 i) = ix3 (n0 := 32) (n1 := 8) (n2 := 100000) (i 0) (7 : Fin 8) (i 1) := by
    funext a; apply Fin.ext
    match a with
    | ⟨0, _⟩ => show ((i 0).val * 100000 + (i 1).val) / 100000 = (i 0).val; omega
    | ⟨1, _⟩ => rfl
    | ⟨2, _⟩ => show ((i 0).val * 100000 + (i 1).val) % 100000 = (i 1).val; omega
  rw [hj]
  exact v14_at x0 x1 x2 (i 0) (i 1)

/-- The reference's result array is the specification's function of the three argument arrays. -/
theorem result_eq : val_main_v16 (F := Ideal) x0 x1 x2 = G x0 x1 x2 :=
  funext (ref_apply x0 x1 x2)

/-- **The reference's run, read back.** On every device, from any memory with zero counters, every weakly fair
    execution of the reference terminates with its result array equal to the specification's function of the three
    argument arrays as they were at the start, and the argument arrays unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨by rw [(h c).1, val_main_v16_eq, result_eq], (h c).2⟩)
    (Cert.ReferenceIdeal.Value.run (F := Ideal) m ρ)

end Cert.ReferenceIdeal.RefValue

end
-- ==== Proof.Finite.lean ====
/-
  The precondition read back: every entry of the three argument arrays is a real number.

  The precondition is the conjunction, over the three arrays, of "every entry `x` satisfies `|x| < +∞`", each
  conjunct computed as a reduction by `and` of the array of comparisons. Over the extended reals `|x|` is
  `max x (−x)`, which is `⊤` at both infinities, and the pattern `0x7F800000` denotes `⊤`; so an entry that passes
  the comparison is neither `⊤` nor `⊥`, that is, it is a real.
-/
import proofs.«157596_g77412490543564_cont_9to1_m_386_14_alg».proof.Pre_finite_inputs
import Idealize.ShloMosaic.Lib.ReduceAll
import Idealize.ShloMosaic.Lib.ValueIdx
import Idealize.ShloMosaic.PureOps.Ideal

noncomputable section

namespace Cert.LastSoftmax.Finite

open Idealize.ShloMosaic Cert.Pre_finite_inputs

/-- The scalar shape has a single index. -/
instance : Subsingleton S_.Idx := ⟨fun _ _ => funext fun d => d.elim0⟩

/-- The single-precision pattern of `+∞` denotes `⊤`. -/
theorem inf_bits : Ideal.ofBits .f32 0x7F800000#32 = (⊤ : EReal) := by
  simp [Ideal.ofBits, Ideal.ieee]

/-- An extended real whose absolute value `max x (−x)` compares below `+∞` is a real. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- **The precondition gives real entries.** If the finiteness predicate of the three argument arrays is true,
    each entry of each array is (the coercion of) a real number. -/
theorem reals_of_pre [Cert.Pre_finite_inputs.Facts] (x : FVec Ideal S32x8x2048 .f32) (w : FVec Ideal S2048x100000 .f32)
    (b : FVec Ideal S100000 .f32) (h : Cert.Pre_finite_inputs.fn (F := Ideal) x w b = fun _ => 1#1) :
    (∀ i, ∃ r : ℝ, x i = (r : EReal)) ∧ (∀ i, ∃ r : ℝ, w i = (r : EReal)) ∧ (∀ i, ∃ r : ℝ, b i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => real_of_abs_lt_inf (x i) (Host.reduce_andi_all _ _ _ _ ValueIdx.ix0 h1 i),
    fun i => real_of_abs_lt_inf (w i) (Host.reduce_andi_all _ _ _ _ ValueIdx.ix0 h2 i),
    fun i => real_of_abs_lt_inf (b i) (Host.reduce_andi_all _ _ _ _ ValueIdx.ix0 h3 i)⟩

end Cert.LastSoftmax.Finite

end
-- ==== Proof.lean ====
/-
  The certificate's claims for the last-position vocabulary softmax.

  The kernel takes sequence position 7 of the [32, 8, 2048] activations, and over a grid of 64 points — one per chunk
  of 32 of the 2048 features — accumulates `logits = x · W + b` into one [32, 100000] buffer kept across the points:
  the first point stores its chunk's product plus the bias, each later point adds its chunk's product, and the last
  point turns the buffer into `exp (logits − rowmax)` and then into that times `1 / rowsum`. The reference forms the
  logits of all eight positions by one contraction, applies `exp (· − max) / sum` along the vocabulary axis and keeps
  position 7.

  Over the extended reals the two results are one function of the argument arrays (`Spec.lean`'s `G`): sums may be
  regrouped and reordered freely, the rows of a softmax are independent so slicing commutes with it, and
  `e · (1 / s) = e / s` as soon as `s ≠ 0` — which is where the precondition is used: finite inputs give real logits,
  a real row maximum, positive exponentials and hence a positive row sum (at `s = 0` the two sides would differ).

  The frames of the two kernel programs come from one proof of the body, case by case on the point's position,
  written once for any float instance; the reference's frame is its run with the result dropped; the idealization
  rewrote nothing, so `preserves` is trivial.
-/
import proofs.«157596_g77412490543564_cont_9to1_m_386_14_alg».proof.Defs
import proofs.«157596_g77412490543564_cont_9to1_m_386_14_alg».proof.Proof.Gen.Kernel
import proofs.«157596_g77412490543564_cont_9to1_m_386_14_alg».proof.Proof.Gen.KernelIdeal
import proofs.«157596_g77412490543564_cont_9to1_m_386_14_alg».proof.Proof.Gen.ReferenceIdeal
import proofs.«157596_g77412490543564_cont_9to1_m_386_14_alg».proof.Proof.Gen.Pre_finite_inputs
import proofs.«157596_g77412490543564_cont_9to1_m_386_14_alg».proof.Proof.Kernel.Body
import proofs.«157596_g77412490543564_cont_9to1_m_386_14_alg».proof.Proof.KernelIdeal.Value
import proofs.«157596_g77412490543564_cont_9to1_m_386_14_alg».proof.Proof.RefValue
import proofs.«157596_g77412490543564_cont_9to1_m_386_14_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the result array at the specification's
    function of those arguments: the kernel because finite inputs make its last step a quotient, the reference as it
    is written. -/
theorem algebraic : Cert.algebraic_KernelIdeal_ReferenceIdeal := by
  intro m ρ m' ρ' hpre hagree
  have hreal := fun c => Cert.LastSoftmax.Finite.reals_of_pre _ _ _ (hpre c)
  refine ⟨fun c => Cert.LastSoftmax.G
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Body.result_eq_G m c (hreal c).1 (hreal c).2.1 (hreal c).2.2), (h c).2⟩)
      (Cert.KernelIdeal.Body.run_out m ρ)
  · exact (θ_run Cert.ReferenceIdeal.defs _ _).mono
      (fun _ h c => ⟨by rw [(h c).1, (hagree c).1, (hagree c).2.1, (hagree c).2.2], (h c).2⟩)
      (Cert.ReferenceIdeal.RefValue.run_G m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
